-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x256 : Shape := ⟨2, ![320000, 256]⟩
abbrev S1x8 : Shape := ⟨2, ![1, 8]⟩
abbrev S20000 : Shape := ⟨1, ![20000]⟩
abbrev S512x1024 : Shape := ⟨2, ![512, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S1x8 : S_.BroadcastsInDim S1x8 (![] : Fin 0 → Fin S1x8.rank)
  reducesTo_S1x8_S_d0_1 : S1x8.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg9 : FVec F S1024x1024 .f32) (main_arg10 : FVec F S1024 .f32) (main_arg11 : FVec F S1024x256 .f32) (main_arg12 : FVec F S256 .f32) (main_arg13 : FVec F S256 .f32) (main_arg14 : FVec F S256 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg11
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S1024 .f32) (main_arg7 : FVec F S1024x1024 .f32) (main_arg8 : FVec F S1024 .f32) (main_arg9 : FVec F S1024x1024 .f32) (main_arg10 : FVec F S1024 .f32) (main_arg11 : FVec F S1024x256 .f32) (main_arg12 : FVec F S256 .f32) (main_arg13 : FVec F S256 .f32) (main_arg14 : FVec F S256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S20000x256 .f32) (main_arg1 : IVec S2x320000 32) (main_arg2 : FVec F S320000x256 .f32) (main_arg3 : FVec F S1x8 .f32) (main_arg4 : IVec S20000 32) (main_arg5 : FVec F S512x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x256 .f32) (main_arg12 : FVec F S256 .f32) (main_arg13 : FVec F S256 .f32) (main_arg14 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg6 main_arg7 main_arg8 main_arg9 main_arg10 main_arg11 main_arg12 main_arg13 main_arg14 main_v13 main_v16
-- ==== Kernel.lean ====
abbrev S20000x256 : Shape := ⟨2, ![20000, 256]⟩
abbrev S2x320000 : Shape := ⟨2, ![2, 320000]⟩
abbrev S320000x256 : Shape := ⟨2, ![320000, 256]⟩
abbrev S1x8 : Shape := ⟨2, ![1, 8]⟩
abbrev S20000 : Shape := ⟨1, ![20000]⟩
abbrev S512x1024 : Shape := ⟨2, ![512, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x512 : Shape := ⟨2, ![20000, 512]⟩
abbrev S1x1024 : Shape := ⟨2, ![1, 1024]⟩
abbrev S1x256 : Shape := ⟨2, ![1, 256]⟩
abbrev S1000x512 : Shape := ⟨2, ![1000, 512]⟩
abbrev S1000x256 : Shape := ⟨2, ![1000, 256]⟩
abbrev S1000x1024 : Shape := ⟨2, ![1000, 1024]⟩
abbrev S1000 : Shape := ⟨1, ![1000]⟩
abbrev S1000x1 : Shape := ⟨2, ![1000, 1]⟩

abbrev nBuf : Space → Nat
  | .hbm => 34
  | .vmem => 14
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x256, .f32⟩
  | .hbm, ⟨3, _⟩ => ⟨S1x8, .f32⟩
  | .hbm, ⟨4, _⟩ => ⟨S20000, .i32⟩
  | .hbm, ⟨5, _⟩ => ⟨S512x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x320000, .i32⟩
  | .hbm, ⟨16, _⟩ => ⟨S320000, .i32⟩
  | .hbm, ⟨17, _⟩ => ⟨S_, .f32⟩
  | .hbm, ⟨18, _⟩ => ⟨S20000x256, .f32⟩
  | .hbm, ⟨19, _⟩ => ⟨S320000x1, .i32⟩
  | .hbm, ⟨20, _⟩ => ⟨S20000x256, .f32⟩
  | .hbm, ⟨21, _⟩ => ⟨S20000x512, .f32⟩
  | .hbm, ⟨22, _⟩ => ⟨S20000x512, .bf16⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S1024x256, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S20000x256, .f32⟩
  | .local _ .vmem, ⟨0, _⟩ => ⟨S1000x512, .bf16⟩
  | .local _ .vmem, ⟨1, _⟩ => ⟨S1000x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x320000_S1x320000_1_0 : S2x320000.Slices ![1, 0] S1x320000
  shapeCasts_S1x320000_S320000 : S1x320000.ShapeCasts S320000
  bcast_S_S20000x256 : S_.BroadcastsInDim S20000x256 (![] : Fin 0 → Fin S20000x256.rank)
  bcast_S320000_S320000x1_0 : S320000.BroadcastsInDim S320000x1 (![0] : Fin 1 → Fin S320000x1.rank)
  concatenates_S20000x256_S20000x256_S20000x512_d1 : Shape.Concatenates [S20000x256, S20000x256] S20000x512 1
  bitsLt_bf16_f32 : FTy.bits .bf16 < FTy.bits .f32
  shapeCasts_S1024_S1x1024 : S1024.ShapeCasts S1x1024
  shapeCasts_S256_S1x256 : S256.ShapeCasts S1x256
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  scatter_S20000x256_S320000x1_S320000x256_1_0_0_1_wf : ScatterDims.WF S20000x256 S320000x1 S320000x256 [1] [0] [0] 1
  dot_S1000x512_S512x1024_S1000x1024_1_0_0_1_n_n_wf : DotDims.WF S1000x512 S512x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .bf16 = 32 ∨ (Rect.block (s := S20000x512) S1000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S20000x256.size a
  hwx0_11 : ∀ i : grid0.Coords, EltTy.bits .f32 = 32 ∨ (Rect.block (s := S20000x256) S1000x256.size (cc0_transform_11 i) (hinb0_11 i)).WholeWords (EltTy.packing .f32)

variable [Facts₀]

def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_v6) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x256 : Shape := ⟨2, ![320000, 256]⟩
abbrev S1x8 : Shape := ⟨2, ![1, 8]⟩
abbrev S20000 : Shape := ⟨1, ![20000]⟩
abbrev S512x1024 : Shape := ⟨2, ![512, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x512 : Shape := ⟨2, ![20000, 512]⟩
abbrev S20000x1024 : Shape := ⟨2, ![20000, 1024]⟩
abbrev S1x1024 : Shape := ⟨2, ![1, 1024]⟩
abbrev S1x256 : Shape := ⟨2, ![1, 256]⟩
abbrev S20000x1 : Shape := ⟨2, ![20000, 1]⟩

abbrev nBuf : Space → Nat
  | .hbm => 76
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x256, .f32⟩
  | .hbm, ⟨3, _⟩ => ⟨S1x8, .f32⟩
  | .hbm, ⟨4, _⟩ => ⟨S20000, .i32⟩
  | .hbm, ⟨5, _⟩ => ⟨S512x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x320000, .i32⟩
  | .hbm, ⟨16, _⟩ => ⟨S320000, .i32⟩
  | .hbm, ⟨17, _⟩ => ⟨S_, .f32⟩
  | .hbm, ⟨18, _⟩ => ⟨S20000x256, .f32⟩
  | .hbm, ⟨19, _⟩ => ⟨S320000x1, .i32⟩
  | .hbm, ⟨20, _⟩ => ⟨S20000x256, .f32⟩
  | .hbm, ⟨21, _⟩ => ⟨S20000x512, .f32⟩
  | .hbm, ⟨22, _⟩ => ⟨S20000x1024, .f32⟩
  | .hbm, ⟨23, _⟩ => ⟨S1x1024, .f32⟩
  | .hbm, ⟨24, _⟩ => ⟨S20000x1024, .f32⟩
  | .hbm, ⟨25, _⟩ => ⟨S20000x1024, .f32⟩
  | .hbm, ⟨26, _⟩ => ⟨S_, .f32⟩
  | .hbm, ⟨27, _⟩ => ⟨S20000x1024, .f32⟩
  | .hbm, ⟨28, _⟩ => ⟨S20000x1024, .f32⟩
  | .hbm, ⟨29, _⟩ => ⟨S20000x1024, .f32⟩
  | .hbm, ⟨30, _⟩ => ⟨S1x1024, .f32⟩
  | .hbm, ⟨31, _⟩ => ⟨S20000x1024, .f32⟩
  | .hbm, ⟨32, _⟩ => ⟨S20000x1024, .f32⟩
  | .hbm, ⟨33, _⟩ => ⟨S_, .f32⟩
  | .hbm, ⟨34, _⟩ => ⟨S20000x1024, .f32⟩
  | .hbm, ⟨35, _⟩ => ⟨S20000x1024, .f32⟩
  | .hbm, ⟨36, _⟩ => ⟨S20000x1024, .f32⟩
  | .hbm, ⟨37, _⟩ => ⟨S1x1024, .f32⟩
  | .hbm, ⟨38, _⟩ => ⟨S20000x1024, .f32⟩
  | .hbm, ⟨39, _⟩ => ⟨S20000x1024, .f32⟩
  | .hbm, ⟨40, _⟩ => ⟨S_, .f32⟩
  | .hbm, ⟨41, _⟩ => ⟨S20000x1024, .f32⟩
  | .hbm, ⟨42, _⟩ => ⟨S20000x1024, .f32⟩
  | .hbm, ⟨43, _⟩ => ⟨S20000x256, .f32⟩
  | .hbm, ⟨44, _⟩ => ⟨S1x256, .f32⟩
  | .hbm, ⟨45, _⟩ => ⟨S20000x256, .f32⟩
  | .hbm, ⟨46, _⟩ => ⟨S20000x256, .f32⟩
  | .hbm, ⟨47, _⟩ => ⟨S_, .f32⟩
  | .hbm, ⟨48, _⟩ => ⟨S20000, .f32⟩
  | .hbm, ⟨49, _⟩ => ⟨S20000x1, .f32⟩
  | .hbm, ⟨50, _⟩ => ⟨S_, .f32⟩
  | .hbm, ⟨51, _⟩ => ⟨S20000x1, .f32⟩
  | .hbm, ⟨52, _⟩ => ⟨S20000x1, .f32⟩
  | .hbm, ⟨53, _⟩ => ⟨S20000x256, .f32⟩
  | .hbm, ⟨54, _⟩ => ⟨S20000x256, .f32⟩
  | .hbm, ⟨55, _⟩ => ⟨S20000x256, .f32⟩
  | .hbm, ⟨56, _⟩ => ⟨S_, .f32⟩
  | .hbm, ⟨57, _⟩ => ⟨S20000, .f32⟩
  | .hbm, ⟨58, _⟩ => ⟨S20000x1, .f32⟩
  | .hbm, ⟨59, _⟩ => ⟨S_, .f32⟩
  | .hbm, ⟨60, _⟩ => ⟨S20000x1, .f32⟩
  | .hbm, ⟨61, _⟩ => ⟨S20000x1, .f32⟩
  | .hbm, ⟨62, _⟩ => ⟨S20000x256, .f32⟩
  | .hbm, ⟨63, _⟩ => ⟨S20000x256, .f32⟩
  | .hbm, ⟨64, _⟩ => ⟨S_, .f32⟩
  | .hbm, ⟨65, _⟩ => ⟨S20000x1, .f32⟩
  | .hbm, ⟨66, _⟩ => ⟨S20000x1, .f32⟩
  | .hbm, ⟨67, _⟩ => ⟨S20000x1, .f32⟩
  | .hbm, ⟨68, _⟩ => ⟨S20000x256, .f32⟩
  | .hbm, ⟨69, _⟩ => ⟨S20000x256, .f32⟩
  | .hbm, ⟨70, _⟩ => ⟨S1x256, .f32⟩
  | .hbm, ⟨71, _⟩ => ⟨S20000x256, .f32⟩
  | .hbm, ⟨72, _⟩ => ⟨S20000x256, .f32⟩
  | .hbm, ⟨73, _⟩ => ⟨S1x256, .f32⟩
  | .hbm, ⟨74, _⟩ => ⟨S20000x256, .f32⟩
  | .hbm, ⟨75, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_cst : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S20000x256 : S_.BroadcastsInDim S20000x256 (![] : Fin 0 → Fin S20000x256.rank)
  bcast_S320000_S320000x1_0 : S320000.BroadcastsInDim S320000x1 (![0] : Fin 1 → Fin S320000x1.rank)
  concatenates_S20000x256_S20000x256_S20000x512_d1 : Shape.Concatenates [S20000x256, S20000x256] S20000x512 1
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  scatter_S20000x256_S320000x1_S320000x256_1_0_0_1_wf : ScatterDims.WF S20000x256 S320000x1 S320000x256 [1] [0] [0] 1
  dot_S20000x512_S512x1024_S20000x1024_1_0_0_1_n_n_wf : DotDims.WF S20000x512 S512x1024 S20000x1024 [1] [0] [0] [1] [] []
  dot_S20000x1024_S1024x1024_S20000x1024_1_0_0_1_n_n_wf : DotDims.WF S20000x1024 S1024x1024 S20000x1024 [1] [0] [0] [1] [] []
  dot_S20000x1024_S1024x256_S20000x256_1_0_0_1_n_n_wf : DotDims.WF S20000x1024 S1024x256 S20000x256 [1] [0] [0] [1] [] []

variable [Facts₀]

def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def dot_S20000x1024_S1024x1024_S20000x1024_1_0_0_1_n_n : DotDims S20000x1024 S1024x1024 S20000x1024 where
  lhsContracting := [1]
  rhsContracting := [0]
  lhsNonContracting := [0]
  rhsNonContracting := [1]
  lhsBatch := []
  rhsBatch := []
  wf := dot_S20000x1024_S1024x1024_S20000x1024_1_0_0_1_n_n_wf
def dot_S20000x1024_S1024x256_S20000x256_1_0_0_1_n_n : DotDims S20000x1024 S1024x256 S20000x256 where
  lhsContracting := [1]
  rhsContracting := [0]
  lhsNonContracting := [0]
  rhsNonContracting := [1]
  lhsBatch := []
  rhsBatch := []
  wf := dot_S20000x1024_S1024x256_S20000x256_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«108196_j47218870453042_2_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.NodeRow.lean ====
/-
  The node update of one message-passing layer, one node at a time.

  Every node carries a row of 512 numbers: its own 256 features followed by the sum of the features of the edges that
  point at it.  The update sends that row through four dense layers — 512 → 1024 → 1024 → 1024 → 256, a rectifier
  after each of the first three — and then normalises the 256 results: with  μ = (Σ h) / 256  and
  σ² = (Σ (h − μ)²) / 256,  entry o becomes  (h(o) − μ) · (σ² + ε)^(−1/2) · γ(o) + β(o).
  The divisor 256 and ε are kept as the f32 words the programs carry (0x43800000 and 0x3727C5AC); both programs
  carry the same words, so the words are never evaluated.  Nodes do not interact: the update of all nodes is this row
  function applied to each row.
-/
import Idealize.ShloMosaic.Lib.ValueIdx
import Idealize.ShloMosaic.PureOps.Ideal.Laws
import proofs.«108196_j47218870453042_2_alg».proof.Proof.LibDense

noncomputable section

open scoped BigOperators

namespace Cert.NodeRow

open Idealize.ShloMosaic Idealize.ShloMosaic.ValueIdx Cert.RowDot Cert.Dense

/-- The weights of one update: four matrices with their biases, and the normalisation's scale and shift. -/
structure Params where
  W0 : (⟨2, ![512, 1024]⟩ : Shape).Idx → EReal
  b0 : Fin 1024 → EReal
  W1 : (⟨2, ![1024, 1024]⟩ : Shape).Idx → EReal
  b1 : Fin 1024 → EReal
  W2 : (⟨2, ![1024, 1024]⟩ : Shape).Idx → EReal
  b2 : Fin 1024 → EReal
  W3 : (⟨2, ![1024, 256]⟩ : Shape).Idx → EReal
  b3 : Fin 256 → EReal
  γ : Fin 256 → EReal
  β : Fin 256 → EReal

/-- The weights read off the argument arrays: the matrices as they are, each bias and the scale and shift a
    length-N array. -/
def argWeights (W0 : (⟨2, ![512, 1024]⟩ : Shape).Idx → EReal) (b0 : (⟨1, ![1024]⟩ : Shape).Idx → EReal)
    (W1 : (⟨2, ![1024, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 256]⟩ : Shape).Idx → EReal) (b3 : (⟨1, ![256]⟩ : Shape).Idx → EReal)
    (γ β : (⟨1, ![256]⟩ : Shape).Idx → EReal) : Params :=
  ⟨W0, biasVec b0, W1, biasVec b1, W2, biasVec b2, W3, biasVec b3, biasVec γ, biasVec β⟩

/-- The third rectified layer's output for a row. -/
def hidden3 (θ : Params) (row : Fin 512 → EReal) : Fin 1024 → EReal :=
  relu (dense θ.W2 θ.b2 (relu (dense θ.W1 θ.b1 (relu (dense θ.W0 θ.b0 row)))))

/-- The four dense layers on a row (no rectifier after the last). -/
def hidden (θ : Params) (row : Fin 512 → EReal) : Fin 256 → EReal := dense θ.W3 θ.b3 (hidden3 θ row)

/-- The mean of 256 numbers, the divisor kept as the word of 256.0. -/
def rowMean (h : Fin 256 → EReal) : EReal := Ideal.div (∑ o : Fin 256, h o) (Ideal.ofBits .f32 0x43800000#32)

/-- The mean square deviation of 256 numbers from their mean. -/
def rowVar (h : Fin 256 → EReal) : EReal :=
  Ideal.div (∑ o : Fin 256, (h o - rowMean h) * (h o - rowMean h)) (Ideal.ofBits .f32 0x43800000#32)

/-- The normalisation of 256 numbers, scaled by γ and shifted by β. -/
def layerNorm (γ β : Fin 256 → EReal) (h : Fin 256 → EReal) : Fin 256 → EReal := fun o =>
  (h o - rowMean h) * Ideal.rsqrt (rowVar h + Ideal.ofBits .f32 0x3727C5AC#32) * γ o + β o

/-- The update of one node's row. -/
def nodeRow (θ : Params) (row : Fin 512 → EReal) : Fin 256 → EReal := layerNorm θ.γ θ.β (hidden θ row)

/-- The update of all 20000 nodes: the row function on each row. -/
def update (θ : Params) (h0 : (⟨2, ![20000, 512]⟩ : Shape).Idx → EReal) : (⟨2, ![20000, 256]⟩ : Shape).Idx → EReal :=
  fun i => nodeRow θ (rowOf h0 (i 0)) (i 1)

end Cert.NodeRow

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.BlockRow.lean ====
/-
  One block of the kernel: 1000 nodes' rows through the node update.

  At a grid point the kernel body holds a block of 1000 rows of 512 numbers, the four weight matrices, the biases
  and the normalisation's scale and shift — each bias and the scale and shift as a 1×N array — and leaves a block of
  1000 rows of 256 numbers.  Every operation of the body acts row by row: a product of the block with a matrix takes
  row p to row p times the matrix, a 1×N array spread over the rows adds the same numbers to every row, the
  rectifier and the changes of float format act entry by entry, a sum along the lanes of a row stays in the row, and
  the column of row means (or of inverse deviations) spread back over the lanes scales row p by row p's number.
  So entry (p, o) of the block the body leaves is the node update of row p of the loaded block, at o.
-/
import proofs.«108196_j47218870453042_2_alg».proof.Proof.Gen.KernelIdeal.Value
import proofs.«108196_j47218870453042_2_alg».proof.Proof.NodeRow
import proofs.«108196_j47218870453042_2_alg».proof.Proof.LibColumn

noncomputable section

open scoped BigOperators

namespace Cert.KernelIdeal.Block

open Cert.KernelIdeal Cert.KernelIdeal.Gen Idealize.ShloMosaic Idealize.ShloMosaic.ValueIdx
open Cert.RowDot Cert.Dense Cert.NodeRow Cert.Column

/-- The weights as the body loads them: the matrices whole, each bias and the scale and shift as the one row of
    a 1×N array. -/
def loaded (P1 : FVec Ideal S512x1024 .bf16) (P2 : FVec Ideal S1x1024 .f32) (P3 : FVec Ideal S1024x1024 .bf16)
    (P4 : FVec Ideal S1x1024 .f32) (P5 : FVec Ideal S1024x1024 .bf16) (P6 : FVec Ideal S1x1024 .f32)
    (P7 : FVec Ideal S1024x256 .bf16) (P8 : FVec Ideal S1x256 .f32) (P9 : FVec Ideal S1x256 .f32) (P10 : FVec Ideal S1x256 .f32) : Params :=
  ⟨P1, biasRow P2, P3, biasRow P4, P5, biasRow P6, P7, biasRow P8, biasRow P9, biasRow P10⟩

/-- The body's last product (before its bias), at entry (p, o): the third rectified layer of row p, times the last
    matrix, at o.  Three times a product into zero plus a spread bias row, rectified and narrowed, then one more
    product: each is the dense layer on row p. -/
theorem pay2_apply (P0 : FVec Ideal S1000x512 .bf16) (P1 : FVec Ideal S512x1024 .bf16) (P2 : FVec Ideal S1x1024 .f32) (P3 : FVec Ideal S1024x1024 .bf16) (P4 : FVec Ideal S1x1024 .f32) (P5 : FVec Ideal S1024x1024 .bf16) (P6 : FVec Ideal S1x1024 .f32) (P7 : FVec Ideal S1024x256 .bf16) (p : Fin 1000) (o : Fin 256) :
    k0_pay2 (F := Ideal) P0 P1 P2 P3 P4 P5 P6 P7 (ix2 p o)
      = rowDot (relu (dense P5 (biasRow P6) (relu (dense P3 (biasRow P4) (relu (dense P1 (biasRow P2) (rowOf P0 p))))))) P7 o := by
  unfold k0_pay2
  refine (matmul_block_apply (M := 1000) (K := 1024) (N := 256) none _ P7 _ p o).trans ?_
  refine congrArg (fun r => rowDot r P7 o) (funext fun k3 => ?_)
  refine (relu_dense_block_apply (M := 1000) (K := 1024) (N := 1024) none _ P5 P6 _ _ _ _ p k3).trans ?_
  refine congrArg (fun r => relu (dense P5 (biasRow P6) r) k3) (funext fun k2 => ?_)
  refine (relu_dense_block_apply (M := 1000) (K := 1024) (N := 1024) none _ P3 P4 _ _ _ _ p k2).trans ?_
  refine congrArg (fun r => relu (dense P3 (biasRow P4) r) k2) (funext fun k1 => ?_)
  refine (relu_dense_block_apply (M := 1000) (K := 512) (N := 1024) none _ P1 P2 _ _ _ _ p k1).trans ?_
  rw [shapeCast_self]

/-- The block before normalisation: the last product plus its spread bias row. -/
def pre (P0 : FVec Ideal S1000x512 .bf16) (P1 : FVec Ideal S512x1024 .bf16) (P2 : FVec Ideal S1x1024 .f32) (P3 : FVec Ideal S1024x1024 .bf16) (P4 : FVec Ideal S1x1024 .f32) (P5 : FVec Ideal S1024x1024 .bf16) (P6 : FVec Ideal S1x1024 .f32) (P7 : FVec Ideal S1024x256 .bf16) (P8 : FVec Ideal S1x256 .f32) : FVec Ideal S1000x256 .f32 :=
  addf (k0_pay2 P0 P1 P2 P3 P4 P5 P6 P7) (broadcastTo S1000x256 (shapeCast S1x256 P8 shapeCasts_S1x256_S1x256) broadcasts_S1x256_S1000x256)

/-- Entry (p, o) of the block before normalisation: the four dense layers on row p, at o. -/
theorem pre_apply (P0 : FVec Ideal S1000x512 .bf16) (P1 : FVec Ideal S512x1024 .bf16) (P2 : FVec Ideal S1x1024 .f32) (P3 : FVec Ideal S1024x1024 .bf16) (P4 : FVec Ideal S1x1024 .f32) (P5 : FVec Ideal S1024x1024 .bf16) (P6 : FVec Ideal S1x1024 .f32) (P7 : FVec Ideal S1024x256 .bf16) (P8 : FVec Ideal S1x256 .f32) (P9 : FVec Ideal S1x256 .f32) (P10 : FVec Ideal S1x256 .f32) (p : Fin 1000) (o : Fin 256) :
    pre P0 P1 P2 P3 P4 P5 P6 P7 P8 (ix2 p o) = hidden (loaded P1 P2 P3 P4 P5 P6 P7 P8 P9 P10) (rowOf P0 p) o := by
  show k0_pay2 (F := Ideal) P0 P1 P2 P3 P4 P5 P6 P7 (ix2 p o)
    + broadcastTo S1000x256 (shapeCast S1x256 P8 shapeCasts_S1x256_S1x256) broadcasts_S1x256_S1000x256 (ix2 p o) = _
  rw [pay2_apply, broadcastTo_1b_ab_apply, shapeCast_self]
  rfl

/-- The sum along the lanes of a 1000×256 block, one number per row. -/
def laneSum (X : FVec Ideal S1000x256 .f32) : FVec Ideal S1000 .f32 :=
  multiReduction .add [1] S1000 X 0x00000000#32 reduces_S1000x256_S1000 (.inl rfl) rfl

/-- The lane sum at row p is the sum of row p. -/
theorem laneSum_apply (X : FVec Ideal S1000x256 .f32) (p : Fin 1000) : laneSum X (ix1 p) = ∑ o : Fin 256, X (ix2 p o) := by
  refine (Ideal.multiReduction_add_single X 0x00000000#32 reduces_S1000x256_S1000 (.inl rfl) rfl (ix1 p)).trans ?_
  exact Finset.sum_congr rfl fun o _ => congrArg X (funext fun a => Fin.ext (by match a with | ⟨0, _⟩ => rfl | ⟨1, _⟩ => rfl))

/-- A block minus its column of row means spread back over the lanes. -/
def centred (X : FVec Ideal S1000x256 .f32) : FVec Ideal S1000x256 .f32 :=
  subf X (broadcastTo S1000x256 (divf (shapeCast S1000x1 (laneSum X) shapeCasts_S1000_S1000x1)
    (broadcast S1000x1 (Scalar.ofBits (F := Ideal) .f32 0x43800000#32))) broadcasts_S1000x1_S1000x256)

/-- Entry (p, o) of the centred block: row p's entry minus row p's mean. -/
theorem centred_apply (X : FVec Ideal S1000x256 .f32) (p : Fin 1000) (o : Fin 256) (h : Fin 256 → EReal)
    (hX : ∀ o', X (ix2 p o') = h o') : centred X (ix2 p o) = h o - rowMean h := by
  show X (ix2 p o) - broadcastTo S1000x256 (divf (shapeCast S1000x1 (laneSum X) shapeCasts_S1000_S1000x1)
    (broadcast S1000x1 (Scalar.ofBits (F := Ideal) .f32 0x43800000#32))) broadcasts_S1000x1_S1000x256 (ix2 p o) = _
  rw [broadcastTo_a1_ab_apply]
  show X (ix2 p o) - Ideal.div (shapeCast S1000x1 (laneSum X) shapeCasts_S1000_S1000x1 (ix2 p (0 : Fin 1)))
    (Ideal.ofBits .f32 0x43800000#32) = _
  rw [shapeCast_a_a1_apply, laneSum_apply, hX, Finset.sum_congr rfl (fun o' _ => hX o')]
  rfl

/-- The block the body leaves, in these words (the same term, regrouped). -/
theorem E11_eq (P0 : FVec Ideal S1000x512 .bf16) (P1 : FVec Ideal S512x1024 .bf16) (P2 : FVec Ideal S1x1024 .f32) (P3 : FVec Ideal S1024x1024 .bf16) (P4 : FVec Ideal S1x1024 .f32) (P5 : FVec Ideal S1024x1024 .bf16) (P6 : FVec Ideal S1x1024 .f32) (P7 : FVec Ideal S1024x256 .bf16) (P8 : FVec Ideal S1x256 .f32) (P9 : FVec Ideal S1x256 .f32) (P10 : FVec Ideal S1x256 .f32) (y : S1000x256.Idx) :
    Value.E11 (F := Ideal) P0 P1 P2 P3 P4 P5 P6 P7 P8 P9 P10 y
      = (k0_pay2 (F := Ideal) P0 P1 P2 P3 P4 P5 P6 P7 (Value.ix11_0 y) + P8 (Value.ix11_1 y)
          - Ideal.div (laneSum (pre P0 P1 P2 P3 P4 P5 P6 P7 P8) (Value.ix11_2 y)) (Ideal.ofBits .f32 0x43800000#32))
        * Ideal.rsqrt (Ideal.div (laneSum (mulf (centred (pre P0 P1 P2 P3 P4 P5 P6 P7 P8)) (centred (pre P0 P1 P2 P3 P4 P5 P6 P7 P8))) (Value.ix11_3 y))
            (Ideal.ofBits .f32 0x43800000#32) + Ideal.ofBits .f32 0x3727C5AC#32)
        * P9 (Value.ix11_4 y) + P10 (Value.ix11_5 y) := rfl

/-- ENTRY (p, o) OF THE BLOCK THE BODY LEAVES is the node update of row p of the loaded block, at o. -/
theorem block_apply (P0 : FVec Ideal S1000x512 .bf16) (P1 : FVec Ideal S512x1024 .bf16) (P2 : FVec Ideal S1x1024 .f32) (P3 : FVec Ideal S1024x1024 .bf16) (P4 : FVec Ideal S1x1024 .f32) (P5 : FVec Ideal S1024x1024 .bf16) (P6 : FVec Ideal S1x1024 .f32) (P7 : FVec Ideal S1024x256 .bf16) (P8 : FVec Ideal S1x256 .f32) (P9 : FVec Ideal S1x256 .f32) (P10 : FVec Ideal S1x256 .f32) (p : Fin 1000) (o : Fin 256) :
    Value.E11 (F := Ideal) P0 P1 P2 P3 P4 P5 P6 P7 P8 P9 P10 (ix2 p o)
      = nodeRow (loaded P1 P2 P3 P4 P5 P6 P7 P8 P9 P10) (rowOf P0 p) o := by
  have hpre := fun o' => pre_apply P0 P1 P2 P3 P4 P5 P6 P7 P8 P9 P10 p o'
  have i0 : Value.ix11_0 (ix2 p o : S1000x256.Idx) = ix2 p o :=
    funext fun a => Fin.ext (by match a with | ⟨0, _⟩ => rfl | ⟨1, _⟩ => rfl)
  have i1 : Value.ix11_1 (ix2 p o : S1000x256.Idx) = ix2 (0 : Fin 1) o :=
    funext fun a => Fin.ext (by match a with | ⟨0, _⟩ => rfl | ⟨1, _⟩ => rfl)
  have i2 : Value.ix11_2 (ix2 p o : S1000x256.Idx) = ix1 p :=
    funext fun a => Fin.ext (by match a with | ⟨0, _⟩ => rfl)
  have i3 : Value.ix11_3 (ix2 p o : S1000x256.Idx) = ix1 p :=
    funext fun a => Fin.ext (by match a with | ⟨0, _⟩ => rfl)
  have i4 : Value.ix11_4 (ix2 p o : S1000x256.Idx) = ix2 (0 : Fin 1) o :=
    funext fun a => Fin.ext (by match a with | ⟨0, _⟩ => rfl | ⟨1, _⟩ => rfl)
  have i5 : Value.ix11_5 (ix2 p o : S1000x256.Idx) = ix2 (0 : Fin 1) o :=
    funext fun a => Fin.ext (by match a with | ⟨0, _⟩ => rfl | ⟨1, _⟩ => rfl)
  have e0 : k0_pay2 (F := Ideal) P0 P1 P2 P3 P4 P5 P6 P7 (ix2 p o) + P8 (ix2 (0 : Fin 1) o)
      = hidden (loaded P1 P2 P3 P4 P5 P6 P7 P8 P9 P10) (rowOf P0 p) o := by
    rw [pay2_apply]; rfl
  have e3 : laneSum (mulf (centred (pre P0 P1 P2 P3 P4 P5 P6 P7 P8)) (centred (pre P0 P1 P2 P3 P4 P5 P6 P7 P8))) (ix1 p)
      = ∑ o' : Fin 256, (hidden (loaded P1 P2 P3 P4 P5 P6 P7 P8 P9 P10) (rowOf P0 p) o' - rowMean (hidden (loaded P1 P2 P3 P4 P5 P6 P7 P8 P9 P10) (rowOf P0 p)))
          * (hidden (loaded P1 P2 P3 P4 P5 P6 P7 P8 P9 P10) (rowOf P0 p) o' - rowMean (hidden (loaded P1 P2 P3 P4 P5 P6 P7 P8 P9 P10) (rowOf P0 p))) := by
    rw [laneSum_apply]
    refine Finset.sum_congr rfl fun o' _ => ?_
    show centred (pre P0 P1 P2 P3 P4 P5 P6 P7 P8) (ix2 p o') * centred (pre P0 P1 P2 P3 P4 P5 P6 P7 P8) (ix2 p o') = _
    rw [centred_apply _ p o' _ hpre]
  rw [E11_eq, i0, i1, i2, i3, i4, i5, e0, e3, laneSum_apply, Finset.sum_congr rfl (fun o' _ => hpre o')]
  rfl

/-- The offsets of a whole-block rectangle are all zero. -/
theorem hz : (![0, 0] : Fin 2 → Nat) = fun _ => 0 := funext fun a => by fin_cases a <;> rfl

/-- ENTRY (p, o) OF WHAT THE BODY STORES, from the blocks it loads (each through the rectangle of its whole
    buffer): the node update of row p of the first block, at o. -/
theorem out_apply (x0 : FVec Ideal S1000x512 .bf16) (x1 : FVec Ideal S512x1024 .bf16) (x2 : FVec Ideal S1x1024 .f32)
    (x3 : FVec Ideal S1024x1024 .bf16) (x4 : FVec Ideal S1x1024 .f32) (x5 : FVec Ideal S1024x1024 .bf16)
    (x6 : FVec Ideal S1x1024 .f32) (x7 : FVec Ideal S1024x256 .bf16) (x8 : FVec Ideal S1x256 .f32)
    (x9 : FVec Ideal S1x256 .f32) (x10 : FVec Ideal S1x256 .f32) (p : Fin 1000) (o : Fin 256) :
    out0_11 (F := Ideal) x0 x1 x2 x3 x4 x5 x6 x7 x8 x9 x10 (ix2 p o)
      = nodeRow (loaded x1 x2 x3 x4 x5 x6 x7 x8 x9 x10) (rowOf x0 p) o := by
  unfold out0_11
  rw [Value.canon11_eq]
  simp only [View.ld_unit_zero (S := S1000x512) hz, View.ld_unit_zero (S := S512x1024) hz,
    View.ld_unit_zero (S := S1x1024) hz, View.ld_unit_zero (S := S1024x1024) hz,
    View.ld_unit_zero (S := S1024x256) hz, View.ld_unit_zero (S := S1x256) hz]
  exact block_apply x0 x1 x2 x3 x4 x5 x6 x7 x8 x9 x10 p o

end Cert.KernelIdeal.Block

end
-- ==== Proof.BlockArray.lean ====
/-
  From the kernel's blocks to its result array.

  The grid has 20 points.  At point t the first window holds rows 1000·t … 1000·t + 999 of the 20000×512 array of
  gathered rows, the ten weight windows hold their whole arrays at every point, and the output window's block is
  rows 1000·t … 1000·t + 999 of the 20000×256 result.  The body leaves in the output block the node update of each
  row of the block it loaded, so what point t writes back is block t of ONE function of the arrays as the region
  finds them — the update of every row —, the 20 blocks tile the result, and the result array ends holding that
  function.  The arrays the region finds are the host's: the gathered rows and the weight matrices after a change of
  float format that keeps every value, each bias and the scale and shift recast as a 1×N array.
-/
import proofs.«108196_j47218870453042_2_alg».proof.Proof.BlockRow
import Idealize.ShloMosaic.Lib.StableHlo.Run

noncomputable section

namespace Cert.KernelIdeal.Array

open Cert.KernelIdeal Cert.KernelIdeal.Gen Cert.KernelIdeal.Block Idealize.ShloMosaic Idealize.ShloMosaic.TcCoe Idealize.SL.Sem
open Idealize.ShloMosaic.ValueIdx Idealize.ShloMosaic.StableHlo Cert.RowDot Cert.Dense Cert.NodeRow
open Idealize.ShloMosaic.Pipeline (Dat)

variable (m : (ℓ : Loc nD τ sig) → Buf (Elt Ideal) ℓ) (ρ : Dev nD → PrngReg)

/-- The printed index maps, decided over the 20 grid points: the rows window and the output window sit at block
    (t, 0); every weight window sits at block (0, 0). -/
theorem idx_facts : ∀ t : Fin cfg0.N, win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 1's block at every point is its whole array. -/
theorem whole1 (c : Dev nD) (t : Fin cfg0.N) : (iblk m c 1 t : FVec Ideal S512x1024 .bf16) = V m c main_v7 := by
  have hf := idx_facts t
  funext y
  show V m c main_v7 (((cfg0.win 1).blk t).view.emb y) = V m c main_v7 y
  refine congrArg (V m c main_v7) (funext fun a => Fin.ext ?_)
  match a with
  | ⟨0, _⟩ => show win0_1.index t (0 : Fin 2) * 512 + 1 * (y 0).val = (y 0).val; omega
  | ⟨1, _⟩ => show win0_1.index t (1 : Fin 2) * 1024 + 1 * (y 1).val = (y 1).val; omega

/-- Window 2's block at every point is its whole array. -/
theorem whole2 (c : Dev nD) (t : Fin cfg0.N) : (iblk m c 2 t : FVec Ideal S1x1024 .f32) = V m c main_v11 := by
  have hf := idx_facts t
  funext y
  show V m c main_v11 (((cfg0.win 2).blk t).view.emb y) = V m c main_v11 y
  refine congrArg (V m c main_v11) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- Window 3's block at every point is its whole array. -/
theorem whole3 (c : Dev nD) (t : Fin cfg0.N) : (iblk m c 3 t : FVec Ideal S1024x1024 .bf16) = V m c main_v8 := by
  have hf := idx_facts t
  funext y
  show V m c main_v8 (((cfg0.win 3).blk t).view.emb y) = V m c main_v8 y
  refine congrArg (V m c main_v8) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4's block at every point is its whole array. -/
theorem whole4 (c : Dev nD) (t : Fin cfg0.N) : (iblk m c 4 t : FVec Ideal S1x1024 .f32) = V m c main_v12 := by
  have hf := idx_facts t
  funext y
  show V m c main_v12 (((cfg0.win 4).blk t).view.emb y) = V m c main_v12 y
  refine congrArg (V m c main_v12) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- Window 5's block at every point is its whole array. -/
theorem whole5 (c : Dev nD) (t : Fin cfg0.N) : (iblk m c 5 t : FVec Ideal S1024x1024 .bf16) = V m c main_v9 := by
  have hf := idx_facts t
  funext y
  show V m c main_v9 (((cfg0.win 5).blk t).view.emb y) = V m c main_v9 y
  refine congrArg (V m c main_v9) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6's block at every point is its whole array. -/
theorem whole6 (c : Dev nD) (t : Fin cfg0.N) : (iblk m c 6 t : FVec Ideal S1x1024 .f32) = V m c main_v13 := by
  have hf := idx_facts t
  funext y
  show V m c main_v13 (((cfg0.win 6).blk t).view.emb y) = V m c main_v13 y
  refine congrArg (V m c main_v13) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7's block at every point is its whole array. -/
theorem whole7 (c : Dev nD) (t : Fin cfg0.N) : (iblk m c 7 t : FVec Ideal S1024x256 .bf16) = V m c main_v10 := by
  have hf := idx_facts t
  funext y
  show V m c main_v10 (((cfg0.win 7).blk t).view.emb y) = V m c main_v10 y
  refine congrArg (V m c main_v10) (funext fun a => Fin.ext ?_)
  match a with
  | ⟨0, _⟩ => show win0_7.index t (0 : Fin 2) * 1024 + 1 * (y 0).val = (y 0).val; omega
  | ⟨1, _⟩ => show win0_7.index t (1 : Fin 2) * 256 + 1 * (y 1).val = (y 1).val; omega

/-- Window 8's block at every point is its whole array. -/
theorem whole8 (c : Dev nD) (t : Fin cfg0.N) : (iblk m c 8 t : FVec Ideal S1x256 .f32) = V m c main_v14 := by
  have hf := idx_facts t
  funext y
  show V m c main_v14 (((cfg0.win 8).blk t).view.emb y) = V m c main_v14 y
  refine congrArg (V m c main_v14) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9's block at every point is its whole array. -/
theorem whole9 (c : Dev nD) (t : Fin cfg0.N) : (iblk m c 9 t : FVec Ideal S1x256 .f32) = V m c main_v15 := by
  have hf := idx_facts t
  funext y
  show V m c main_v15 (((cfg0.win 9).blk t).view.emb y) = V m c main_v15 y
  refine congrArg (V m c main_v15) (funext fun a => Fin.ext ?_)
  match a with
  | ⟨0, _⟩ => show win0_9.index t (0 : Fin 2) * 1 + 1 * (y 0).val = (y 0).val; omega
  | ⟨1, _⟩ => show win0_9.index t (1 : Fin 2) * 256 + 1 * (y 1).val = (y 1).val; omega

/-- Window 10's block at every point is its whole array. -/
theorem whole10 (c : Dev nD) (t : Fin cfg0.N) : (iblk m c 10 t : FVec Ideal S1x256 .f32) = V m c main_v16 := by
  have hf := idx_facts t
  funext y
  show V m c main_v16 (((cfg0.win 10).blk t).view.emb y) = V m c main_v16 y
  refine congrArg (V m c main_v16) (funext fun a => Fin.ext ?_)
  match a with
  | ⟨0, _⟩ => show win0_10.index t (0 : Fin 2) * 1 + 1 * (y 0).val = (y 0).val; omega
  | ⟨1, _⟩ => show win0_10.index t (1 : Fin 2) * 256 + 1 * (y 1).val = (y 1).val; omega

/-- Row p of the rows window's block at point t is row 1000·t + p of the array. -/
theorem rows_blk (c : Dev nD) (t : Fin cfg0.N) (p : Fin 1000) (r : Fin 20000) (hr : r.val = t.val * 1000 + p.val) :
    rowOf (iblk m c 0 t : FVec Ideal S1000x512 .bf16) p = rowOf (V m c main_v6 : FVec Ideal S20000x512 .bf16) r := by
  have hf := idx_facts t
  funext k
  show V m c main_v6 (((cfg0.win 0).blk t).view.emb (ix2 p k)) = V m c main_v6 (ix2 r k)
  refine congrArg (V m c main_v6) (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The weights as the region finds them. -/
def weights (c : Dev nD) : Params :=
  loaded (V m c main_v7) (V m c main_v11) (V m c main_v8) (V m c main_v12) (V m c main_v9) (V m c main_v13)
    (V m c main_v10) (V m c main_v14) (V m c main_v15) (V m c main_v16)

/-- The result as one function of the arrays the region finds: the update of every row. -/
def result (c : Dev nD) : S20000x256.Idx → EReal := update (weights m c) (V m c main_v6)

/-- WHAT POINT t WRITES BACK is block t of `result`. -/
theorem flushed_eq (c : Dev nD) (t : Fin cfg0.N) :
    (dats m 0 c).flushed 11 t = ((cfg0.win 11).blk t).view.read (Elt Ideal) (result m c) := by
  have hf := idx_facts t
  rw [Value.flushed11]
  funext y
  obtain ⟨p, o, rfl⟩ : ∃ (p : Fin 1000) (o : Fin 256), y = ix2 p o := ⟨y 0, y 1, eq_ix2 (n0 := 1000) (n1 := 256) y⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p o)
    = result m c (((cfg0.win 11).blk t).view.emb (ix2 p o))
  rw [out_apply, whole1 m c t, whole2 m c t, whole3 m c t, whole4 m c t, whole5 m c t, whole6 m c t, whole7 m c t,
    whole8 m c t, whole9 m c t, whole10 m c t]
  have h0 : ((((cfg0.win 11).blk t).view.emb (ix2 p o) : S20000x256.Idx) 0).val = t.val * 1000 + p.val := by
    show win0_11.index t (0 : Fin 2) * 1000 + 1 * p.val = t.val * 1000 + p.val; omega
  have h1 : (((cfg0.win 11).blk t).view.emb (ix2 p o) : S20000x256.Idx) 1 = o :=
    Fin.ext (by show win0_11.index t (1 : Fin 2) * 256 + 1 * o.val = o.val; omega)
  rw [rows_blk m c t p _ h0]
  exact congrArg (nodeRow (weights m c) (rowOf (V m c main_v6 : FVec Ideal S20000x512 .bf16) _)) h1.symm

/-- An index of the result is in point t's block iff each coordinate is in the block's range on its axis. -/
theorem mem_blk (t : Fin cfg0.N) (i : S20000x256.Idx) :
    i ∈ ((cfg0.win 11).blk t).view.set ↔ ∀ a : Fin 2, win0_11.index t a * S1000x256.size a ≤ (i a).val
      ∧ (i a).val < win0_11.index t a * S1000x256.size a + S1000x256.size a := by
  show i ∈ ((View.whole main_v17).slice (win0_11.rect t)).set ↔ _
  rw [View.set_slice_whole, Rect.mem_set_unit]
  exact Iff.rfl

/-- Every index of the result lies in some point's block: row r in block r / 1000. -/
theorem cover (i : S20000x256.Idx) :
    ∃ t : Fin cfg0.N, (cfg0.win 11).flush t = true ∧ i ∈ ((cfg0.win 11).blk t).view.set := by
  have hi0 : (i 0).val < 20000 := (i 0).isLt
  have hi1 : (i 1).val < 256 := (i 1).isLt
  obtain ⟨t, ht⟩ : ∃ t : Fin cfg0.N, t.val = (i 0).val / 1000 :=
    ⟨⟨(i 0).val / 1000, by show (i 0).val / 1000 < grid0.N; rw [N_0]; omega⟩, rfl⟩
  have hf := idx_facts t
  refine ⟨t, flush0_11 t, ?_⟩
  rw [mem_blk]
  intro a
  match a with
  | ⟨0, _⟩ =>
    show win0_11.index t (0 : Fin 2) * 1000 ≤ (i 0).val ∧ (i 0).val < win0_11.index t (0 : Fin 2) * 1000 + 1000
    omega
  | ⟨1, _⟩ =>
    show win0_11.index t (1 : Fin 2) * 256 ≤ (i 1).val ∧ (i 1).val < win0_11.index t (1 : Fin 2) * 256 + 256
    omega

/-- THE RESULT ARRAY after the run is `result`. -/
theorem final (c : Dev nD) : (dats m 0 c).arrAt 11 cfg0.N = result m c :=
  (dats m 0 c).arrAt_eq_of_cover 11 (result m c) (fun t _ => flushed_eq m c t) (fun i => cover i)

/-! ## The arrays the region finds, from the argument arrays -/

/-- A weight matrix after the host's change of float format: the argument itself. -/
theorem V_W0 (c : Dev nD) : (V m c main_v7 : S512x1024.Idx → EReal) = m ((c : Thread nD τ).loc main_arg5) := by
  dsimp only [V, hostOps0]; after_results; rfl
theorem V_W1 (c : Dev nD) : (V m c main_v8 : S1024x1024.Idx → EReal) = m ((c : Thread nD τ).loc main_arg7) := by
  dsimp only [V, hostOps0]; after_results; rfl
theorem V_W2 (c : Dev nD) : (V m c main_v9 : S1024x1024.Idx → EReal) = m ((c : Thread nD τ).loc main_arg9) := by
  dsimp only [V, hostOps0]; after_results; rfl
theorem V_W3 (c : Dev nD) : (V m c main_v10 : S1024x256.Idx → EReal) = m ((c : Thread nD τ).loc main_arg11) := by
  dsimp only [V, hostOps0]; after_results; rfl

/-- A bias (or the scale, or the shift) as the region finds it: the length-N argument recast as a 1×N array. -/
theorem V_b0 (c : Dev nD) : (V m c main_v11 : S1x1024.Idx → EReal)
    = shapeCast S1x1024 (m ((c : Thread nD τ).loc main_arg6) : S1024.Idx → EReal) shapeCasts_S1024_S1x1024 := by
  dsimp only [V, hostOps0]; after_results; rfl
theorem V_b1 (c : Dev nD) : (V m c main_v12 : S1x1024.Idx → EReal)
    = shapeCast S1x1024 (m ((c : Thread nD τ).loc main_arg8) : S1024.Idx → EReal) shapeCasts_S1024_S1x1024 := by
  dsimp only [V, hostOps0]; after_results; rfl
theorem V_b2 (c : Dev nD) : (V m c main_v13 : S1x1024.Idx → EReal)
    = shapeCast S1x1024 (m ((c : Thread nD τ).loc main_arg10) : S1024.Idx → EReal) shapeCasts_S1024_S1x1024 := by
  dsimp only [V, hostOps0]; after_results; rfl
theorem V_b3 (c : Dev nD) : (V m c main_v14 : S1x256.Idx → EReal)
    = shapeCast S1x256 (m ((c : Thread nD τ).loc main_arg12) : S256.Idx → EReal) shapeCasts_S256_S1x256 := by
  dsimp only [V, hostOps0]; after_results; rfl
theorem V_gamma (c : Dev nD) : (V m c main_v15 : S1x256.Idx → EReal)
    = shapeCast S1x256 (m ((c : Thread nD τ).loc main_arg13) : S256.Idx → EReal) shapeCasts_S256_S1x256 := by
  dsimp only [V, hostOps0]; after_results; rfl
theorem V_beta (c : Dev nD) : (V m c main_v16 : S1x256.Idx → EReal)
    = shapeCast S1x256 (m ((c : Thread nD τ).loc main_arg14) : S256.Idx → EReal) shapeCasts_S256_S1x256 := by
  dsimp only [V, hostOps0]; after_results; rfl

/-- The weights the region finds are the weights read off the argument arrays. -/
theorem weights_eq (c : Dev nD) : weights m c
    = argWeights (m ((c : Thread nD τ).loc main_arg5)) (m ((c : Thread nD τ).loc main_arg6))
        (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12))
        (m ((c : Thread nD τ).loc main_arg13)) (m ((c : Thread nD τ).loc main_arg14)) := by
  unfold weights loaded argWeights
  rw [V_W0, V_W1, V_W2, V_W3, V_b0, V_b1, V_b2, V_b3, V_gamma, V_beta,
    biasRow_shapeCast, biasRow_shapeCast, biasRow_shapeCast, biasRow_shapeCast, biasRow_shapeCast, biasRow_shapeCast]

end Cert.KernelIdeal.Array

end
-- ==== Proof.KernelValue.lean ====
/-
  The kernel's result as one function of its argument arrays.

  Before the region the kernel's program gathers the rows exactly as the reference does — the nodes' features joined
  with the edge features summed onto the edges' target nodes, the same operations on the same arguments — and then
  only changes the float format, which keeps every value.  So the rows the region finds are the reference's gathered
  rows of the same arguments (that stage's value is carried whole; it is never opened), the weights it finds are the
  argument arrays', and after the run the result array holds the update of every gathered row.
-/
import proofs.«108196_j47218870453042_2_alg».proof.Proof.BlockArray
import proofs.«108196_j47218870453042_2_alg».proof.Proof.Gen.ReferenceIdeal.Read

noncomputable section

namespace Cert.KernelIdeal.Whole

open Cert.KernelIdeal Cert.KernelIdeal.Gen Cert.KernelIdeal.Array Idealize.ShloMosaic Idealize.ShloMosaic.TcCoe Idealize.SL.Sem
open Idealize.ShloMosaic.StableHlo Cert.NodeRow

variable (m : (ℓ : Loc nD τ sig) → Buf (Elt Ideal) ℓ) (ρ : Dev nD → PrngReg)

/-- The rows the region finds: the reference's gathered rows of the same three arguments. -/
theorem V_rows (c : Dev nD) : (V m c main_v6 : S20000x512.Idx → EReal)
    = Cert.ReferenceIdeal.Read.val_main_v5 (F := Ideal) (m ((c : Thread nD τ).loc main_arg0)) (m ((c : Thread nD τ).loc main_arg1)) (m ((c : Thread nD τ).loc main_arg2)) := by
  dsimp only [V, hostOps0]; after_results; rfl

/-- The result of the whole kernel, from the argument arrays: the update of every gathered row. -/
def value (c : Dev nD) : S20000x256.Idx → EReal :=
  update (argWeights (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (Cert.ReferenceIdeal.Read.val_main_v5 (F := Ideal) (m ((c : Thread nD τ).loc main_arg0)) (m ((c : Thread nD τ).loc main_arg1)) (m ((c : Thread nD τ).loc main_arg2)))

/-- The result array after the run is `value`. -/
theorem final_value (c : Dev nD) : (dats m 0 c).arrAt 11 cfg0.N = value m c := by
  rw [final m c]
  unfold result value
  rw [weights_eq m c, V_rows m c]

/-- The kernel's run, read: the result array at `value`, the arguments unchanged. -/
theorem run : θ_run defs (onTc (τ := τ) (main (F := Ideal))) ⟨m, fun _ => 0, ρ⟩ fun r => ∀ c : Dev nD,
      r.2.mem ((c : Thread nD τ).loc main_v17) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_value m c), (h c).2⟩) (Value.run_blocks m ρ)

end Cert.KernelIdeal.Whole

end
-- ==== Proof.HostRow.lean ====
/-
  The reference, one node at a time.

  The reference computes the update of all 20000 nodes at once: whole-array products with the weight matrices, each
  bias spread over the rows, the rectifier against a spread zero, sums along axis 1 kept as a column and spread back.
  Read at an entry (n, o), every one of these operations looks only at row n: a product's entry is row n times the
  matrix, a spread bias adds b(o), a sum along axis 1 at n is the sum of row n, and a column spread back gives row n
  its own number.  So the reference's result at (n, o) is the node update of row n of the gathered rows, at o —
  the rows being the nodes' features joined with the edge features summed onto their targets, a stage whose value is
  carried here whole and never opened.
-/
import proofs.«108196_j47218870453042_2_alg».proof.Proof.Gen.ReferenceIdeal.Read
import proofs.«108196_j47218870453042_2_alg».proof.Proof.NodeRow

noncomputable section

open scoped BigOperators

namespace Cert.ReferenceIdeal.HostRow

open Cert.ReferenceIdeal Cert.ReferenceIdeal.Read Idealize.ShloMosaic Idealize.ShloMosaic.ValueIdx
open Cert.RowDot Cert.Dense Cert.NodeRow

/-- Two indices of a rank-2 shape with equal coordinates are equal. -/
local macro "idx2" : term => `(funext fun a => Fin.ext (by match a with | ⟨0, _⟩ => rfl | ⟨1, _⟩ => rfl))
/-- Two indices of a rank-1 shape with equal coordinates are equal. -/
local macro "idx1" : term => `(funext fun a => Fin.ext (by match a with | ⟨0, _⟩ => rfl))

variable (x0 : (⟨S20000x256, .f32⟩ : BufTy).Contents (Elt Ideal)) (x1 : (⟨S2x320000, .i32⟩ : BufTy).Contents (Elt Ideal)) (x2 : (⟨S320000x256, .f32⟩ : BufTy).Contents (Elt Ideal))
  (x5 : (⟨S512x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal)) (x11 : (⟨S1024x256, .f32⟩ : BufTy).Contents (Elt Ideal)) (x12 : (⟨S256, .f32⟩ : BufTy).Contents (Elt Ideal))
  (x13 : (⟨S256, .f32⟩ : BufTy).Contents (Elt Ideal)) (x14 : (⟨S256, .f32⟩ : BufTy).Contents (Elt Ideal))

/-- The first rectified layer at (n, j): the layer on row n of the gathered rows. -/
theorem layer1 (n : Fin 20000) (j : Fin 1024) :
    val_main_v10 (F := Ideal) x0 x1 x2 x5 x6 (ix2 n j) = relu (dense x5 (biasVec x6) (rowOf (val_main_v5 (F := Ideal) x0 x1 x2) n)) j := by
  rw [val_main_v10_apply, val_main_v9_apply, val_main_v6_apply, val_main_v8_apply, val_main_v7_apply,
    val_main_call0_v0_apply, val_main_call0_cst_apply]
  refine congrArg₂ max (congrArg₂ (· + ·) (Finset.sum_congr rfl fun k _ => ?_) ?_) rfl
  · refine congrArg₂ (· * ·) ?_ (congrArg x5 idx2)
    exact congrArg (val_main_v5 (F := Ideal) x0 x1 x2) idx2
  · exact congrArg x6 idx1

/-- The second rectified layer at (n, j). -/
theorem layer2 (n : Fin 20000) (j : Fin 1024) :
    val_main_v15 (F := Ideal) x0 x1 x2 x5 x6 x7 x8 (ix2 n j) = relu (dense x7 (biasVec x8) (relu (dense x5 (biasVec x6) (rowOf (val_main_v5 (F := Ideal) x0 x1 x2) n)))) j := by
  rw [val_main_v15_apply, val_main_v14_apply, val_main_v11_apply, val_main_v13_apply, val_main_v12_apply,
    val_main_call1_v0_apply, val_main_call1_cst_apply]
  refine congrArg₂ max (congrArg₂ (· + ·) (Finset.sum_congr rfl fun k _ => ?_) ?_) rfl
  · refine congrArg₂ (· * ·) ?_ (congrArg x7 idx2)
    exact (congrArg (val_main_v10 (F := Ideal) x0 x1 x2 x5 x6) idx2).trans (layer1 x0 x1 x2 x5 x6 n k)
  · exact congrArg x8 idx1

/-- The third rectified layer at (n, j). -/
theorem layer3 (n : Fin 20000) (j : Fin 1024) :
    val_main_v20 (F := Ideal) x0 x1 x2 x5 x6 x7 x8 x9 x10 (ix2 n j) = relu (dense x9 (biasVec x10) (relu (dense x7 (biasVec x8) (relu (dense x5 (biasVec x6) (rowOf (val_main_v5 (F := Ideal) x0 x1 x2) n)))))) j := by
  rw [val_main_v20_apply, val_main_v19_apply, val_main_v16_apply, val_main_v18_apply, val_main_v17_apply,
    val_main_call2_v0_apply, val_main_call2_cst_apply]
  refine congrArg₂ max (congrArg₂ (· + ·) (Finset.sum_congr rfl fun k _ => ?_) ?_) rfl
  · refine congrArg₂ (· * ·) ?_ (congrArg x9 idx2)
    exact (congrArg (val_main_v15 (F := Ideal) x0 x1 x2 x5 x6 x7 x8) idx2).trans (layer2 x0 x1 x2 x5 x6 x7 x8 n k)
  · exact congrArg x10 idx1

/-- The four dense layers at (n, o): the value before normalisation. -/
theorem pre_apply (n : Fin 20000) (o : Fin 256) :
    val_main_v24 (F := Ideal) x0 x1 x2 x5 x6 x7 x8 x9 x10 x11 x12 (ix2 n o) = hidden (argWeights x5 x6 x7 x8 x9 x10 x11 x12 x13 x14) (rowOf (val_main_v5 (F := Ideal) x0 x1 x2) n) o := by
  rw [val_main_v24_apply, val_main_v21_apply, val_main_v23_apply, val_main_v22_apply]
  refine congrArg₂ (· + ·) (Finset.sum_congr rfl fun k _ => ?_) ?_
  · refine congrArg₂ (· * ·) ?_ (congrArg x11 idx2)
    exact (congrArg (val_main_v20 (F := Ideal) x0 x1 x2 x5 x6 x7 x8 x9 x10) idx2).trans (layer3 x0 x1 x2 x5 x6 x7 x8 x9 x10 n k)
  · exact congrArg x12 idx1

/-- The sum along axis 1, at n: the sum of row n (the sum starts from the zero word, which denotes 0). -/
theorem sum_apply (n : Fin 20000) :
    val_main_v25 (F := Ideal) x0 x1 x2 x5 x6 x7 x8 x9 x10 x11 x12 (ix1 n) = ∑ o : Fin 256, hidden (argWeights x5 x6 x7 x8 x9 x10 x11 x12 x13 x14) (rowOf (val_main_v5 (F := Ideal) x0 x1 x2) n) o := by
  rw [val_main_v25_apply, val_main_cst_0_apply]
  show Ideal.ofBits .f32 0x00000000#32 + _ = _
  rw [Ideal.ofBits_zero_f32, zero_add]
  exact Finset.sum_congr rfl fun o _ =>
    (congrArg (val_main_v24 (F := Ideal) x0 x1 x2 x5 x6 x7 x8 x9 x10 x11 x12) idx2).trans (pre_apply x0 x1 x2 x5 x6 x7 x8 x9 x10 x11 x12 x13 x14 n o)

/-- The column of means, at (n, ·): the mean of row n. -/
theorem mean_apply (n : Fin 20000) (u : Fin 1) :
    val_main_v28 (F := Ideal) x0 x1 x2 x5 x6 x7 x8 x9 x10 x11 x12 (ix2 n u) = rowMean (hidden (argWeights x5 x6 x7 x8 x9 x10 x11 x12 x13 x14) (rowOf (val_main_v5 (F := Ideal) x0 x1 x2) n)) := by
  rw [val_main_v28_apply, val_main_v26_apply, val_main_v27_apply, val_main_cst_1_apply]
  show Ideal.div (val_main_v25 (F := Ideal) x0 x1 x2 x5 x6 x7 x8 x9 x10 x11 x12 (idx_main_v26 (ix2 n u))) (Ideal.ofBits .f32 0x43800000#32) = _
  rw [show idx_main_v26 (ix2 n u) = ix1 n from idx1, sum_apply x0 x1 x2 x5 x6 x7 x8 x9 x10 x11 x12 x13 x14 n]
  rfl

/-- The centred value at (n, o), as the variance's operand. -/
theorem centred_apply (n : Fin 20000) (o : Fin 256) :
    val_main_v30 (F := Ideal) x0 x1 x2 x5 x6 x7 x8 x9 x10 x11 x12 (ix2 n o) = hidden (argWeights x5 x6 x7 x8 x9 x10 x11 x12 x13 x14) (rowOf (val_main_v5 (F := Ideal) x0 x1 x2) n) o - rowMean (hidden (argWeights x5 x6 x7 x8 x9 x10 x11 x12 x13 x14) (rowOf (val_main_v5 (F := Ideal) x0 x1 x2) n)) := by
  rw [val_main_v30_apply, val_main_v29_apply, pre_apply x0 x1 x2 x5 x6 x7 x8 x9 x10 x11 x12 x13 x14 n o,
    show idx_main_v29 (ix2 n o) = ix2 n (0 : Fin 1) from idx2, mean_apply x0 x1 x2 x5 x6 x7 x8 x9 x10 x11 x12 x13 x14 n 0]
  rfl

/-- The centred value at (n, o), as the result's factor (the same number, computed again by the program). -/
theorem centred_apply' (n : Fin 20000) (o : Fin 256) :
    val_main_v37 (F := Ideal) x0 x1 x2 x5 x6 x7 x8 x9 x10 x11 x12 (ix2 n o) = hidden (argWeights x5 x6 x7 x8 x9 x10 x11 x12 x13 x14) (rowOf (val_main_v5 (F := Ideal) x0 x1 x2) n) o - rowMean (hidden (argWeights x5 x6 x7 x8 x9 x10 x11 x12 x13 x14) (rowOf (val_main_v5 (F := Ideal) x0 x1 x2) n)) := by
  rw [val_main_v37_apply, val_main_v36_apply, pre_apply x0 x1 x2 x5 x6 x7 x8 x9 x10 x11 x12 x13 x14 n o,
    show idx_main_v36 (ix2 n o) = ix2 n (0 : Fin 1) from idx2, mean_apply x0 x1 x2 x5 x6 x7 x8 x9 x10 x11 x12 x13 x14 n 0]
  rfl

/-- The column of mean square deviations, at (n, ·). -/
theorem var_apply (n : Fin 20000) (u : Fin 1) :
    val_main_v35 (F := Ideal) x0 x1 x2 x5 x6 x7 x8 x9 x10 x11 x12 (ix2 n u) = rowVar (hidden (argWeights x5 x6 x7 x8 x9 x10 x11 x12 x13 x14) (rowOf (val_main_v5 (F := Ideal) x0 x1 x2) n)) := by
  rw [val_main_v35_apply, val_main_v33_apply, val_main_v34_apply, val_main_cst_3_apply, val_main_v32_apply, val_main_cst_2_apply]
  show Ideal.div (Ideal.ofBits .f32 0x00000000#32 + ∑ k : Fin 256, val_main_v31 (F := Ideal) x0 x1 x2 x5 x6 x7 x8 x9 x10 x11 x12 (idx_main_v32 (idx_main_v33 (ix2 n u)) k))
    (Ideal.ofBits .f32 0x43800000#32) = _
  rw [Ideal.ofBits_zero_f32, zero_add]
  refine congrArg (fun s => Ideal.div s (Ideal.ofBits .f32 0x43800000#32)) (Finset.sum_congr rfl fun k _ => ?_)
  rw [show idx_main_v32 (idx_main_v33 (ix2 n u)) k = ix2 n k from idx2, val_main_v31_apply,
    centred_apply x0 x1 x2 x5 x6 x7 x8 x9 x10 x11 x12 x13 x14 n k]
  rfl

/-- THE REFERENCE'S RESULT AT (n, o) is the node update of row n of the gathered rows, at o. -/
theorem out_apply (n : Fin 20000) (o : Fin 256) :
    val_main_v48 (F := Ideal) x0 x1 x2 x5 x6 x7 x8 x9 x10 x11 x12 x13 x14 (ix2 n o)
      = nodeRow (argWeights x5 x6 x7 x8 x9 x10 x11 x12 x13 x14) (rowOf (val_main_v5 (F := Ideal) x0 x1 x2) n) o := by
  rw [val_main_v48_apply, val_main_v45_apply, val_main_v42_apply,
    centred_apply' x0 x1 x2 x5 x6 x7 x8 x9 x10 x11 x12 x13 x14 n o,
    val_main_v41_apply, val_main_v40_apply, val_main_v39_apply, val_main_v38_apply, val_main_cst_4_apply,
    show idx_main_v41 (ix2 n o) = ix2 n (0 : Fin 1) from idx2, var_apply x0 x1 x2 x5 x6 x7 x8 x9 x10 x11 x12 x13 x14 n 0,
    val_main_v44_apply, val_main_v43_apply, val_main_v47_apply, val_main_v46_apply,
    show idx_main_v43 (idx_main_v44 (ix2 n o)) = ix1 o from idx1, show idx_main_v46 (idx_main_v47 (ix2 n o)) = ix1 o from idx1]
  rfl

/-- The reference's result array is the update of the gathered rows. -/
theorem result_eq :
    val_main_v48 (F := Ideal) x0 x1 x2 x5 x6 x7 x8 x9 x10 x11 x12 x13 x14 = update (argWeights x5 x6 x7 x8 x9 x10 x11 x12 x13 x14) (val_main_v5 (F := Ideal) x0 x1 x2) := by
  funext i
  obtain ⟨n, o, rfl⟩ : ∃ (n : Fin 20000) (o : Fin 256), i = ix2 n o := ⟨i 0, i 1, eq_ix2 i⟩
  exact out_apply x0 x1 x2 x5 x6 x7 x8 x9 x10 x11 x12 x13 x14 n o

end Cert.ReferenceIdeal.HostRow

end
-- ==== Proof.lean ====
/-
  The node update of a message-passing layer, computed two ways, is one function.

  Both programs gather for every one of 20000 nodes a row of 512 numbers (its 256 features, then the sum of the
  256 features of every edge pointing at it), send the row through four dense layers with a rectifier after each of
  the first three, and normalise the 256 results (mean, mean square deviation, inverse square root of the deviation
  plus ε, scale γ, shift β).  The reference does this on whole arrays; the kernel gathers on the host the same
  way and then runs the layers and the normalisation block by block, 1000 rows per grid point, with the matrices
  and the rows narrowed to bf16 on the way — a change of format that keeps every extended real.
  At the exact values a product into a zero accumulator and the host's contraction are the same sum, a sum along
  the lanes and the host's sum from zero are the same sum, and both divide by the same word (256.0) and add the
  same word (ε), so entry (n, o) of either result is the same row function of row n of the gathered rows
  (Proof/NodeRow.lean), at o: Proof/BlockRow.lean and Proof/BlockArray.lean read it off the kernel's blocks,
  Proof/HostRow.lean off the reference's operations.  No law beyond the two sums' forms is used, so the
  precondition is never opened.  The kernel's idealization rewrote nothing, so that claim is trivial.
-/
import proofs.«108196_j47218870453042_2_alg».proof.Defs
import proofs.«108196_j47218870453042_2_alg».proof.Proof.Gen.Kernel
import proofs.«108196_j47218870453042_2_alg».proof.Proof.Gen.Kernel.Skeleton
import proofs.«108196_j47218870453042_2_alg».proof.Proof.Gen.Kernel.Launch
import proofs.«108196_j47218870453042_2_alg».proof.Proof.Gen.Kernel.Points
import proofs.«108196_j47218870453042_2_alg».proof.Proof.Gen.Kernel.Frame
import proofs.«108196_j47218870453042_2_alg».proof.Proof.Gen.KernelIdeal
import proofs.«108196_j47218870453042_2_alg».proof.Proof.Gen.KernelIdeal.Skeleton
import proofs.«108196_j47218870453042_2_alg».proof.Proof.Gen.KernelIdeal.Launch
import proofs.«108196_j47218870453042_2_alg».proof.Proof.Gen.KernelIdeal.Points
import proofs.«108196_j47218870453042_2_alg».proof.Proof.Gen.KernelIdeal.Frame
import proofs.«108196_j47218870453042_2_alg».proof.Proof.Gen.ReferenceIdeal
import proofs.«108196_j47218870453042_2_alg».proof.Proof.Gen.Pre_finite_inputs
import proofs.«108196_j47218870453042_2_alg».proof.Proof.Gen.KernelIdeal.Value
import proofs.«108196_j47218870453042_2_alg».proof.Proof.Gen.ReferenceIdeal.Run
import proofs.«108196_j47218870453042_2_alg».proof.Proof.Gen.ReferenceIdeal.Read
import proofs.«108196_j47218870453042_2_alg».proof.Proof.KernelValue
import proofs.«108196_j47218870453042_2_alg».proof.Proof.HostRow
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the update of every gathered row. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8, a9, a10, a11, a12, a13, a14⟩ := hagree c
  rw [Cert.ReferenceIdeal.Read.val_main_v48_eq, Cert.ReferenceIdeal.HostRow.result_eq, a0, a1, a2, a5, a6, a7, a8, a9, a10,
    a11, a12, a13, a14]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
